-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S131072x1 : Shape := ⟨2, ![131072, 1]⟩
abbrev S131072 : Shape := ⟨1, ![131072]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_

variable [Facts]

def fn {F : FTy → Type} [FloatOps F] (main_arg0 : FVec F S8192x256 .f32) (main_arg1 : FVec F S131072x1 .f32) (main_arg2 : IVec S131072 32) (main_arg3 : IVec S131072 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S131072x1 .f32 := Host.absf main_arg1
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  main_v8
-- ==== Kernel.lean ====
abbrev S8192x256 : Shape := ⟨2, ![8192, 256]⟩
abbrev S131072x1 : Shape := ⟨2, ![131072, 1]⟩
abbrev S131072 : Shape := ⟨1, ![131072]⟩
abbrev S_ : Shape := ⟨0, ![]⟩
abbrev S131072x256 : Shape := ⟨2, ![131072, 256]⟩
abbrev S8192x8192 : Shape := ⟨2, ![8192, 8192]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 76
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S131072x1, .f32⟩
  | .hbm, ⟨2, _⟩ => ⟨S131072, .i32⟩
  | .hbm, ⟨3, _⟩ => ⟨S131072, .i32⟩
  | .hbm, ⟨4, _⟩ => ⟨S131072, .i1⟩
  | .hbm, ⟨5, _⟩ => ⟨S131072x1, .i1⟩
  | .hbm, ⟨6, _⟩ => ⟨S_, .f32⟩
  | .hbm, ⟨7, _⟩ => ⟨S131072x1, .f32⟩
  | .hbm, ⟨8, _⟩ => ⟨S131072x1, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S8192x256, .f32⟩
  | .hbm, ⟨22, _⟩ => ⟨S131072x1, .i32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S8192x256, .f32⟩
  | .hbm, ⟨44, _⟩ => ⟨S131072x1, .i32⟩
  | .hbm, ⟨45, _⟩ => ⟨S8192x256, .f32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S8192x256, .f32⟩
  | .hbm, ⟨67, _⟩ => ⟨S131072x1, .i32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x1024, .f32⟩
  | .local _ .vmem, ⟨17, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S8192x256 : S_.BroadcastsInDim S8192x256 (![] : Fin 0 → Fin S8192x256.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .f32 = 32 ∨ (Rect.block (s := S8192x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x8192.size a
  hwx0_8 : ∀ i : grid0.Coords, EltTy.bits .f32 = 32 ∨ (Rect.block (s := S8192x8192) S1024x1024.size (cc0_transform_8 i) (hinb0_8 i)).WholeWords (EltTy.packing .f32)

variable [Facts₀]

def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v54) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v54) S1024x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v55) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x256 : Shape := ⟨2, ![8192, 256]⟩
abbrev S131072x1 : Shape := ⟨2, ![131072, 1]⟩
abbrev S131072 : Shape := ⟨1, ![131072]⟩
abbrev S_ : Shape := ⟨0, ![]⟩
abbrev S131072x256 : Shape := ⟨2, ![131072, 256]⟩
abbrev S256x8192 : Shape := ⟨2, ![256, 8192]⟩
abbrev S8192x8192 : Shape := ⟨2, ![8192, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S131072x1, .f32⟩
  | .hbm, ⟨2, _⟩ => ⟨S131072, .i32⟩
  | .hbm, ⟨3, _⟩ => ⟨S131072, .i32⟩
  | .hbm, ⟨4, _⟩ => ⟨S131072, .i1⟩
  | .hbm, ⟨5, _⟩ => ⟨S131072x1, .i1⟩
  | .hbm, ⟨6, _⟩ => ⟨S_, .f32⟩
  | .hbm, ⟨7, _⟩ => ⟨S131072x1, .f32⟩
  | .hbm, ⟨8, _⟩ => ⟨S131072x1, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S8192x256, .f32⟩
  | .hbm, ⟨22, _⟩ => ⟨S131072x1, .i32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S8192x256, .f32⟩
  | .hbm, ⟨44, _⟩ => ⟨S131072x1, .i32⟩
  | .hbm, ⟨45, _⟩ => ⟨S8192x256, .f32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S8192x256, .f32⟩
  | .hbm, ⟨67, _⟩ => ⟨S131072x1, .i32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S256x8192, .f32⟩
  | .hbm, ⟨79, _⟩ => ⟨S8192x8192, .f32⟩
  | .hbm, ⟨80, _⟩ => ⟨S256x8192, .f32⟩
  | .hbm, ⟨81, _⟩ => ⟨S8192x8192, .f32⟩
  | .hbm, ⟨82, _⟩ => ⟨S256x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S256x8192, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S8192x256 : S_.BroadcastsInDim S8192x256 (![] : Fin 0 → Fin S8192x256.rank)
  transposes_S8192x256_S256x8192_1_0 : S8192x256.Transposes [1, 0] S256x8192
  bcast_S_S8192x8192 : S_.BroadcastsInDim S8192x8192 (![] : Fin 0 → Fin S8192x8192.rank)
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x8192_S8192x8192_1_0_0_1_n_n_wf : DotDims.WF S8192x256 S256x8192 S8192x8192 [1] [0] [0] [1] [] []

variable [Facts₀]

def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KHost.lean ====
/-
  The host side of the frame: the program up to its one region.

  The program is three stretches of host operations (the self-loop override of the edge weights, the called
  selection, and the three rounds of gather, weight, scatter-add and update that build the stage states) followed by the
  region.  `V` is what every buffer holds when the region is entered: the launch memory folded through those operations
  in order.  None of them allocates, and none writes an argument array, so the region finds the four arguments as
  they were launched.
-/
import proofs.«176461_j28552942584321_1_alg».proof.Proof.Gen.Kernel.Launch
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

variable (m : (ℓ : Loc nD τ sig) → Buf (Elt F) ℓ) (ρ : Dev nD → PrngReg)

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program up to the region: holding every unscoped buffer at the launch contents, it reaches the region holding
    them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.KBody.lean ====
/-
  The kernel body at one grid point.

  The body loads the eight input blocks whole (a row block and a column block of each of the four stage states),
  forms the four products of a row block with the transpose of a column block, weights and adds them, scales the sum, and
  stores the result over the whole output block; it also loads the output block first, a value it never uses.  So
  after the body the eight input buffers are as they were and the output buffer holds one covering store of the
  body's arithmetic applied to the eight input blocks.
-/
import proofs.«176461_j28552942584321_1_alg».proof.Proof.Gen.Kernel.Launch
import proofs.«176461_j28552942584321_1_alg».proof.Proof.Gen.Kernel.Skeleton
import proofs.«176461_j28552942584321_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The whole of an input block, and the whole of the output block. -/
abbrev rIn : Rect S1024x256 := Rect.unit (s := S1024x256) ![0, 0] S1024x256.size inb_S1024x256_S1024x256_0_0
abbrev rOut : Rect S1024x1024 := Rect.unit (s := S1024x1024) ![0, 0] S1024x1024.size inb_S1024x1024_S1024x1024_0_0

/-- What the body leaves in the output buffer, from the eight input blocks: its one store, over the whole block. -/
def outBlock (x0 : Vec F S1024x256 .f32) (x1 : Vec F S1024x256 .f32) (x2 : Vec F S1024x256 .f32) (x3 : Vec F S1024x256 .f32) (x4 : Vec F S1024x256 .f32) (x5 : Vec F S1024x256 .f32) (x6 : Vec F S1024x256 .f32) (x7 : Vec F S1024x256 .f32) : Vec F S1024x1024 .f32 :=
  View.canon [⟨rOut, k0_pay1 (k0_pay2 (View.ld x0 rIn) (View.ld x1 rIn) (View.ld x2 rIn) (View.ld x3 rIn) (View.ld x4 rIn) (View.ld x5 rIn)) (k0_pay3 (View.ld x6 rIn) (View.ld x7 rIn))⟩]

/-- The one store covers the block. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 4000000 in
/-- The body on whole staging buffers, the inputs' at contents `x0 … x7` and the output's at anything, runs to the
    continuation holding the inputs' as they were and the output's at `outBlock` of them. -/
theorem sound_kernel (c : Dev nD) (E : Set ℕ) (i : grid0.Coords) (a0 : Memref sig .tc .vmem S1024x256 .f32) (ha0 : a0.IsWhole) (a1 : Memref sig .tc .vmem S1024x256 .f32) (ha1 : a1.IsWhole) (a2 : Memref sig .tc .vmem S1024x256 .f32) (ha2 : a2.IsWhole) (a3 : Memref sig .tc .vmem S1024x256 .f32) (ha3 : a3.IsWhole) (a4 : Memref sig .tc .vmem S1024x256 .f32) (ha4 : a4.IsWhole) (a5 : Memref sig .tc .vmem S1024x256 .f32) (ha5 : a5.IsWhole) (a6 : Memref sig .tc .vmem S1024x256 .f32) (ha6 : a6.IsWhole) (a7 : Memref sig .tc .vmem S1024x256 .f32) (ha7 : a7.IsWhole) (a8 : Memref sig .tc .vmem S1024x1024 .f32) (ha8 : a8.IsWhole)
    (x0 : Vec F S1024x256 .f32) (x1 : Vec F S1024x256 .f32) (x2 : Vec F S1024x256 .f32) (x3 : Vec F S1024x256 .f32) (x4 : Vec F S1024x256 .f32) (x5 : Vec F S1024x256 .f32) (x6 : Vec F S1024x256 .f32) (x7 : Vec F S1024x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBlock x0 x1 x2 x3 x4 x5 x6 x7)) -∗ K ⟨⟩))
      ⊢ wp frame (wpE (defs₀ (F := F)) Variants.none c none) E (cc0__gram_kernel i a0 ha0 a1 ha1 a2 ha2 a3 ha3 a4 ha4 a5 ha5 a6 ha6 a7 ha7 a8 ha8) K := by
  simp only [cc0__gram_kernel_eq_skeleton]; unfold cc0__gram_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

end Cert.Kernel.Hand

end
-- ==== Proof.KDats.lean ====
/-
  The proof data of the one pipelined region, and the body at every grid point.

  The region has nine windows on five arrays: a row block and a column block of each of the four stage states
  (windows 0 and 1 on the start state, 2 and 3, 4 and 5, 6 and 7 on the three later ones) and the output tile.
  The two windows of a pair read the SAME array, so the array's full share is dealt between them: the row window
  holds the left half, the column window the right half, and the output window holds its array at the full share.
  Every input window's staging buffer holds its block of the array at every point, whether the pipeline fetched it there
  or kept it from the point before (the row blocks move only every eighth point); the output buffer is handed to the
  body at anything and left at the body's one covering store of the eight blocks.
-/
import proofs.«176461_j28552942584321_1_alg».proof.Proof.KHost
import proofs.«176461_j28552942584321_1_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input window's current buffer holds its block, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input buffer at its block and the output buffer at the
    body's store of the eight blocks; the invariant the scoped buffers the pipeline does not stage; nothing owed; the
    two windows of a pair hold the two halves of their array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  The frame run of one pipelined region whose input windows may read ONE array through several windows.

  The launch theorems of the pipeline library hold every window's array at the full share, which needs the
  windows' arrays pairwise distinct. When two input windows stage blocks of the same array, the array's full
  share is dealt among them instead: the certificate says how the distinct buffers behind the windows, each
  whole at the full share at the region's entry, make the proof data's arrays at the shares it names
  (`hsplit`). Everything else is as for distinct arrays: the scoped buffers the pipeline does not stage
  enter the region invariant at point 0 and are handed back after the last point; every unscoped buffer
  that is no window's array bypasses the region and is read back as the region found it; and every window's
  array ends at what the proof data compute from the write-backs. The generator register is not handed to
  the body (a body that draws no random bits needs none).
-/
import Idealize.ShloMosaic.Lib.Pipeline.Frame

noncomputable section

namespace Cert.LibSharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- Every weakly fair execution of a program that is host operations followed by one pipelined region
    terminates without a fault, each window's array ending at the proof data's `arrAt … N` and every other
    unscoped buffer as the region found it — for windows that may share arrays, the full share of each
    distinct array dealt among its windows by `hsplit`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (Ix := Unit) (Name := ℕ) (U := UR sig nD τ) (Lvl := ℕ) (Val := Val) (cfgs p).spec c : sProp 𝕄) from by
      iintro ⟨-, Hr⟩; iexact Hr).trans (hin c))
    (hout := fun c => (hout c).trans (by
      iintro Hr
      isplitr; · iempintro
      iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedFrame

end
-- ==== Proof.KRun.lean ====
/-
  The region's launch and the frame.

  The launch hands the pipeline the five distinct buffers behind its nine windows, each whole at the full share.  The
  four input arrays are each read through two windows, so each is split into its left and right halves, one per window; the
  output array goes to its window whole.  With the body obligation and the host side this gives the run: every weakly fair
  execution terminates, each window's array ends at what the write-backs make of it, and every other unscoped buffer
  ends as the region found it.  The start state is an input array (never written back), the other three arguments are no
  window's array, and no host operation writes an argument: so the four arguments end as they were launched.
-/
import proofs.«176461_j28552942584321_1_alg».proof.Proof.KDats
import proofs.«176461_j28552942584321_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the nine windows: the start state, the three later stage states, the result. -/
theorem arr_image : (Finset.univ.image (Pipeline.arrRef spec0) : Finset (Ref sig .tc))
    = [main_arg0, main_v19, main_v37, main_v54, main_v55].toFinset := by decide

/-- A conjunction over those five buffers, one by one. -/
theorem bigSep_arr {M : Type} [URA M] (Φ : Ref sig .tc → sProp M) :
    bigSep (Finset.univ.image (Pipeline.arrRef spec0)) Φ = iprop(Φ main_arg0 ∗ Φ main_v19 ∗ Φ main_v37 ∗ Φ main_v54 ∗ Φ main_v55) :=
  bigSep_eq_bigSepL_of_eq [main_arg0, main_v19, main_v37, main_v54, main_v55] arr_image (by decide) Φ

/-- The windows' arrays, each a whole buffer, as plain points-tos at the windows' shares. -/
theorem arrays_eq (c : Dev nD) :
    (dats m 0 c).arrays ((dats m 0 c).arrAt · 0)
      = bigSep Finset.univ fun w : Fin 9 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The five buffers, whole at the full share, dealt among the nine windows: each input array's two halves to its
    row window and its column window, the result whole to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [bigSep_arr]
  iintro ⟨Ha, Hb, Hc, Hd, Ho⟩
  ihave Ha := (pointsTo_share (PosShare.mem_left_op_right fullShare)).1 $$ Ha
  icases Ha with ⟨Ha₁, Ha₂⟩
  ihave Hb := (pointsTo_share (PosShare.mem_left_op_right fullShare)).1 $$ Hb
  icases Hb with ⟨Hb₁, Hb₂⟩
  ihave Hc := (pointsTo_share (PosShare.mem_left_op_right fullShare)).1 $$ Hc
  icases Hc with ⟨Hc₁, Hc₂⟩
  ihave Hd := (pointsTo_share (PosShare.mem_left_op_right fullShare)).1 $$ Hd
  icases Hd with ⟨Hd₁, Hd₂⟩
  isplitl [Ha₁]; · iexact Ha₁
  isplitl [Ha₂]; · iexact Ha₂
  isplitl [Hb₁]; · iexact Hb₁
  isplitl [Hb₂]; · iexact Hb₂
  isplitl [Hc₁]; · iexact Hc₁
  isplitl [Hc₂]; · iexact Hc₂
  isplitl [Hd₁]; · iexact Hd₁
  isplitl [Hd₂]; · iexact Hd₂
  iexact Ho

set_option backward.isDefEq.respectTransparency.types false in
/-- Every weakly fair execution of the program terminates, nothing faulting; each window's array ends at what the
    write-backs make of it and every other unscoped buffer as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KIHost.lean ====
/-
  The host side of the frame: the program up to its one region.

  The program is three stretches of host operations (the self-loop override of the edge weights, the called
  selection, and the three rounds of gather, weight, scatter-add and update that build the stage states) followed by the
  region.  `V` is what every buffer holds when the region is entered: the launch memory folded through those operations
  in order.  None of them allocates, and none writes an argument array, so the region finds the four arguments as
  they were launched.
-/
import proofs.«176461_j28552942584321_1_alg».proof.Proof.Gen.KernelIdeal.Launch
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (ρ : Dev nD → PrngReg)

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program up to the region: holding every unscoped buffer at the launch contents, it reaches the region holding
    them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KIBody.lean ====
/-
  The kernel body at one grid point.

  The body loads the eight input blocks whole (a row block and a column block of each of the four stage states),
  forms the four products of a row block with the transpose of a column block, weights and adds them, scales the sum, and
  stores the result over the whole output block; it also loads the output block first, a value it never uses.  So
  after the body the eight input buffers are as they were and the output buffer holds one covering store of the
  body's arithmetic applied to the eight input blocks.
-/
import proofs.«176461_j28552942584321_1_alg».proof.Proof.Gen.KernelIdeal.Launch
import proofs.«176461_j28552942584321_1_alg».proof.Proof.Gen.KernelIdeal.Skeleton
import proofs.«176461_j28552942584321_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The whole of an input block, and the whole of the output block. -/
abbrev rIn : Rect S1024x256 := Rect.unit (s := S1024x256) ![0, 0] S1024x256.size inb_S1024x256_S1024x256_0_0
abbrev rOut : Rect S1024x1024 := Rect.unit (s := S1024x1024) ![0, 0] S1024x1024.size inb_S1024x1024_S1024x1024_0_0

/-- What the body leaves in the output buffer, from the eight input blocks: its one store, over the whole block. -/
def outBlock (x0 : Vec F S1024x256 .f32) (x1 : Vec F S1024x256 .f32) (x2 : Vec F S1024x256 .f32) (x3 : Vec F S1024x256 .f32) (x4 : Vec F S1024x256 .f32) (x5 : Vec F S1024x256 .f32) (x6 : Vec F S1024x256 .f32) (x7 : Vec F S1024x256 .f32) : Vec F S1024x1024 .f32 :=
  View.canon [⟨rOut, k0_pay1 (k0_pay2 (View.ld x0 rIn) (View.ld x1 rIn) (View.ld x2 rIn) (View.ld x3 rIn) (View.ld x4 rIn) (View.ld x5 rIn)) (k0_pay3 (View.ld x6 rIn) (View.ld x7 rIn))⟩]

/-- The one store covers the block. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 4000000 in
/-- The body on whole staging buffers, the inputs' at contents `x0 … x7` and the output's at anything, runs to the
    continuation holding the inputs' as they were and the output's at `outBlock` of them. -/
theorem sound_kernel (c : Dev nD) (E : Set ℕ) (i : grid0.Coords) (a0 : Memref sig .tc .vmem S1024x256 .f32) (ha0 : a0.IsWhole) (a1 : Memref sig .tc .vmem S1024x256 .f32) (ha1 : a1.IsWhole) (a2 : Memref sig .tc .vmem S1024x256 .f32) (ha2 : a2.IsWhole) (a3 : Memref sig .tc .vmem S1024x256 .f32) (ha3 : a3.IsWhole) (a4 : Memref sig .tc .vmem S1024x256 .f32) (ha4 : a4.IsWhole) (a5 : Memref sig .tc .vmem S1024x256 .f32) (ha5 : a5.IsWhole) (a6 : Memref sig .tc .vmem S1024x256 .f32) (ha6 : a6.IsWhole) (a7 : Memref sig .tc .vmem S1024x256 .f32) (ha7 : a7.IsWhole) (a8 : Memref sig .tc .vmem S1024x1024 .f32) (ha8 : a8.IsWhole)
    (x0 : Vec F S1024x256 .f32) (x1 : Vec F S1024x256 .f32) (x2 : Vec F S1024x256 .f32) (x3 : Vec F S1024x256 .f32) (x4 : Vec F S1024x256 .f32) (x5 : Vec F S1024x256 .f32) (x6 : Vec F S1024x256 .f32) (x7 : Vec F S1024x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outBlock x0 x1 x2 x3 x4 x5 x6 x7)) -∗ K ⟨⟩))
      ⊢ wp frame (wpE (defs₀ (F := F)) Variants.none c none) E (cc0__gram_kernel i a0 ha0 a1 ha1 a2 ha2 a3 ha3 a4 ha4 a5 ha5 a6 ha6 a7 ha7 a8 ha8) K := by
  simp only [cc0__gram_kernel_eq_skeleton]; unfold cc0__gram_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

end Cert.KernelIdeal.Hand

end
-- ==== Proof.KIDats.lean ====
/-
  The proof data of the one pipelined region, and the body at every grid point.

  The region has nine windows on five arrays: a row block and a column block of each of the four stage states
  (windows 0 and 1 on the start state, 2 and 3, 4 and 5, 6 and 7 on the three later ones) and the output tile.
  The two windows of a pair read the SAME array, so the array's full share is dealt between them: the row window
  holds the left half, the column window the right half, and the output window holds its array at the full share.
  Every input window's staging buffer holds its block of the array at every point, whether the pipeline fetched it there
  or kept it from the point before (the row blocks move only every eighth point); the output buffer is handed to the
  body at anything and left at the body's one covering store of the eight blocks.
-/
import proofs.«176461_j28552942584321_1_alg».proof.Proof.KIHost
import proofs.«176461_j28552942584321_1_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input window's current buffer holds its block, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input buffer at its block and the output buffer at the
    body's store of the eight blocks; the invariant the scoped buffers the pipeline does not stage; nothing owed; the
    two windows of a pair hold the two halves of their array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The region's launch and the frame.

  The launch hands the pipeline the five distinct buffers behind its nine windows, each whole at the full share.  The
  four input arrays are each read through two windows, so each is split into its left and right halves, one per window; the
  output array goes to its window whole.  With the body obligation and the host side this gives the run: every weakly fair
  execution terminates, each window's array ends at what the write-backs make of it, and every other unscoped buffer
  ends as the region found it.  The start state is an input array (never written back), the other three arguments are no
  window's array, and no host operation writes an argument: so the four arguments end as they were launched.
-/
import proofs.«176461_j28552942584321_1_alg».proof.Proof.KIDats
import proofs.«176461_j28552942584321_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the nine windows: the start state, the three later stage states, the result. -/
theorem arr_image : (Finset.univ.image (Pipeline.arrRef spec0) : Finset (Ref sig .tc))
    = [main_arg0, main_v19, main_v37, main_v54, main_v55].toFinset := by decide

/-- A conjunction over those five buffers, one by one. -/
theorem bigSep_arr {M : Type} [URA M] (Φ : Ref sig .tc → sProp M) :
    bigSep (Finset.univ.image (Pipeline.arrRef spec0)) Φ = iprop(Φ main_arg0 ∗ Φ main_v19 ∗ Φ main_v37 ∗ Φ main_v54 ∗ Φ main_v55) :=
  bigSep_eq_bigSepL_of_eq [main_arg0, main_v19, main_v37, main_v54, main_v55] arr_image (by decide) Φ

/-- The windows' arrays, each a whole buffer, as plain points-tos at the windows' shares. -/
theorem arrays_eq (c : Dev nD) :
    (dats m 0 c).arrays ((dats m 0 c).arrAt · 0)
      = bigSep Finset.univ fun w : Fin 9 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The five buffers, whole at the full share, dealt among the nine windows: each input array's two halves to its
    row window and its column window, the result whole to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [bigSep_arr]
  iintro ⟨Ha, Hb, Hc, Hd, Ho⟩
  ihave Ha := (pointsTo_share (PosShare.mem_left_op_right fullShare)).1 $$ Ha
  icases Ha with ⟨Ha₁, Ha₂⟩
  ihave Hb := (pointsTo_share (PosShare.mem_left_op_right fullShare)).1 $$ Hb
  icases Hb with ⟨Hb₁, Hb₂⟩
  ihave Hc := (pointsTo_share (PosShare.mem_left_op_right fullShare)).1 $$ Hc
  icases Hc with ⟨Hc₁, Hc₂⟩
  ihave Hd := (pointsTo_share (PosShare.mem_left_op_right fullShare)).1 $$ Hd
  icases Hd with ⟨Hd₁, Hd₂⟩
  isplitl [Ha₁]; · iexact Ha₁
  isplitl [Ha₂]; · iexact Ha₂
  isplitl [Hb₁]; · iexact Hb₁
  isplitl [Hb₂]; · iexact Hb₂
  isplitl [Hc₁]; · iexact Hc₁
  isplitl [Hc₂]; · iexact Hc₂
  isplitl [Hd₁]; · iexact Hd₁
  isplitl [Hd₂]; · iexact Hd₂
  iexact Ho

set_option backward.isDefEq.respectTransparency.types false in
/-- Every weakly fair execution of the program terminates, nothing faulting; each window's array ends at what the
    write-backs make of it and every other unscoped buffer as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.GramSpec.lean ====
/-
  The arithmetic both programs end with, and the law that joins their two arrangements.

  Each entry of the result is built from four inner products of rows: of the start state with itself and of the three
  later stage states with themselves.  One program weights the two middle products by three one after the other,
  adds the four and multiplies by one eighth on the right; the other adds the two middle products, weights their
  sum by three once, adds, and multiplies on the left by the product of one and one eighth.  Over the extended reals a
  product with a NON-NEGATIVE REAL distributes over any sum, infinite summands included, so the two arrangements agree
  for all extended-real inner products: no finiteness is needed.
-/
import Idealize.ShloMosaic.PureOps.Ideal
import Idealize.ShloMosaic.Lib.ValueIdx

noncomputable section

namespace Cert.GramSpec

open Idealize.ShloMosaic Idealize.ShloMosaic.ValueIdx

/-- The float words the two programs spell: one, three and one eighth. -/
abbrev w1 : EReal := Ideal.ofBits .f32 0x3F800000#32
abbrev w3 : EReal := Ideal.ofBits .f32 0x40400000#32
abbrev w8 : EReal := Ideal.ofBits .f32 0x3E000000#32

/-- The word of one denotes one. -/
theorem w1_eq : w1 = 1 := by
  simp [Ideal.ofBits, Ideal.ieee, -EReal.coe_mul]; norm_num

/-- The word of three denotes the real three. -/
theorem w3_eq : w3 = ((3 : ℝ) : EReal) := by
  simp [Ideal.ofBits, Ideal.ieee, -EReal.coe_mul]; norm_num

/-- The inner product of row `p` of `A` with row `q` of `B`, both with 256 columns. -/
def rowDot {n n' : Nat} (A : (⟨2, ![n, 256]⟩ : Shape).Idx → EReal) (B : (⟨2, ![n', 256]⟩ : Shape).Idx → EReal)
    (p : Fin n) (q : Fin n') : EReal :=
  ∑ k : Fin 256, A (ix2 p k) * B (ix2 q k)

/-- The four products weighted one after the other, the sum scaled on the right. -/
def kernelForm (a b c d : EReal) : EReal := (((a + w3 * b) + w3 * c) + d) * w8

/-- The two middle products added first and weighted once, the sum scaled on the left. -/
def refForm (a b c d : EReal) : EReal := (w1 * w8) * ((a + w3 * (b + c)) + d)

/-- The two arrangements are one extended real. -/
theorem forms_eq (a b c d : EReal) : kernelForm a b c d = refForm a b c d := by
  unfold kernelForm refForm
  rw [w1_eq, one_mul, mul_comm _ w8, w3_eq,
    EReal.left_distrib_of_nonneg_of_ne_top (EReal.coe_nonneg.mpr (by norm_num : (0 : ℝ) ≤ 3)) (EReal.coe_ne_top 3) b c,
    add_assoc a]

end Cert.GramSpec

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KernelEntry.lean ====
/-
  One entry of the tile the kernel body computes, as the weighted sum of four inner products of rows.

  The body forms four products of a 1024 x 256 block with the transpose of another 1024 x 256 block, each into a
  zero accumulator.  Over the extended reals the narrowing of the operands to a shorter format is the identity and a
  product accumulated into zero is the plain contraction, so the entry (p, q) of each product is the inner product of
  row p of the left block with row q of the right block.  The body then weights the second and the third product by
  the word of three one after the other, adds the four, and multiplies on the right by the word of one eighth: the
  arrangement the shared specification names kernelForm.
-/
import proofs.«176461_j28552942584321_1_alg».proof.Proof.Gen.KernelIdeal.Skeleton
import proofs.«176461_j28552942584321_1_alg».proof.Proof.GramSpec
import proofs.«176461_j28552942584321_1_alg».proof.Proof.LibPlainDot
import Idealize.ShloMosaic.PureOps.Ideal.Laws
import Idealize.ShloMosaic.Lib.ValueIdx
import Idealize.ShloMosaic.Lib.Pipeline.Value

noncomputable section

namespace Cert.KernelEntry

open Idealize.ShloMosaic Idealize.ShloMosaic.ValueIdx Cert.KernelIdeal Cert.KernelIdeal.Gen Cert.GramSpec

/-- A block times the transpose of a block, both narrowed, accumulated into zero: the entry (p, q) is the inner
    product of row p of the left block with row q of the right block. -/
theorem gram_apply (l r : FVec Ideal S1024x256 .f32) (hb : FTy.bits .bf16 < FTy.bits .f32)
    (ht : S1024x256.Transposes [1, 0] S256x1024) (p q : Fin 1024) :
    matmul (F := Ideal) dot_S1024x256_S256x1024_S1024x1024_1_0_0_1_n_n none
        (truncf .bf16 l hb) (transpose S256x1024 [1, 0] (truncf .bf16 r hb) ht)
        (constant S1024x1024 .f32 0x00000000#32) (ix2 p q)
      = rowDot l r p q := by
  refine (Cert.PlainDot.matmul_zero_apply (M := 1024) (K := 256) (N := 1024)
    dot_S1024x256_S256x1024_S1024x1024_1_0_0_1_n_n rfl none _ _ p q).trans ?_
  unfold rowDot
  refine Finset.sum_congr rfl fun k _ => ?_
  rw [transpose_apply [1, 0] (truncf .bf16 r hb) ht (ix2 k q) (ix2 q k) (fun b => match b with
    | ⟨0, _⟩ => rfl
    | ⟨1, _⟩ => rfl)]
  rfl

/-- The entry (p, q) of the tile the body stores: the four inner products in the kernel's arrangement. -/
theorem block_entry (a0 a1 b0 b1 c0 c1 d0 d1 : Vec Ideal S1024x256 .f32) (p q : Fin 1024) :
    k0_pay1 (F := Ideal) (k0_pay2 (F := Ideal) a0 a1 b0 b1 c0 c1) (k0_pay3 (F := Ideal) d0 d1) (ix2 p q)
      = kernelForm (rowDot a0 a1 p q) (rowDot b0 b1 p q) (rowDot c0 c1 p q) (rowDot d0 d1 p q) := by
  unfold k0_pay1 k0_pay2 k0_pay3 kernelForm
  simp only [shapeCast_self, mulf_apply, addf_apply, broadcast_apply]
  rw [gram_apply a0 a1, gram_apply b0 b1, gram_apply c0 c1, gram_apply d0 d1]
  rfl

end Cert.KernelEntry

end
-- ==== Proof.KIValue.lean ====
/-
  The result array after the run, as one function of the four stage states.

  Entry (i, j) of the result depends on row i and row j of each of the four arrays: it is the weighted sum of the four
  inner products of those rows, scaled.  Grid point (a, b) computes the 1024 × 1024 tile of rows a·1024 … and columns
  b·1024 …: its row windows hold rows a·1024 + p of the arrays, its column windows rows b·1024 + q, so the body's value at
  (p, q) of the tile is the function's value at (a·1024 + p, b·1024 + q).  The 64 tiles cover the result, every point
  writes its tile back, and so the array ends holding the function everywhere.
-/
import proofs.«176461_j28552942584321_1_alg».proof.Proof.KIDats
import proofs.«176461_j28552942584321_1_alg».proof.Proof.KernelEntry
import proofs.«176461_j28552942584321_1_alg».proof.Proof.GramSpec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.GramSpec

variable (m : (ℓ : Loc nD τ sig) → Buf (Elt Ideal) ℓ) (ρ : Dev nD → PrngReg)

theorem hz : (![0, 0] : Fin 2 → Nat) = fun _ => 0 := funext fun a => by fin_cases a <;> rfl

/-- The result: at (i, j) the scaled weighted sum of the four inner products of rows i and j. -/
def G (X0 XB XC XD : S8192x256.Idx → EReal) : S8192x8192.Idx → EReal := fun i =>
  kernelForm (rowDot X0 X0 (⟨(i 0).val, (i 0).isLt⟩ : Fin 8192) (⟨(i 1).val, (i 1).isLt⟩ : Fin 8192))
    (rowDot XB XB (⟨(i 0).val, (i 0).isLt⟩ : Fin 8192) (⟨(i 1).val, (i 1).isLt⟩ : Fin 8192))
    (rowDot XC XC (⟨(i 0).val, (i 0).isLt⟩ : Fin 8192) (⟨(i 1).val, (i 1).isLt⟩ : Fin 8192))
    (rowDot XD XD (⟨(i 0).val, (i 0).isLt⟩ : Fin 8192) (⟨(i 1).val, (i 1).isLt⟩ : Fin 8192))

/-- The index maps over the grid: a row window's block index is the output tile's row index, a column window's its
    column index, every input block starts at column 0, and the tile indices stay below 8. -/
theorem idx_facts : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = win0_8.index t (0 : Fin 2) ∧ win0_2.index t (1 : Fin 2) = 0
    ∧ win0_3.index t (0 : Fin 2) = win0_8.index t (1 : Fin 2) ∧ win0_3.index t (1 : Fin 2) = 0
    ∧ win0_4.index t (0 : Fin 2) = win0_8.index t (0 : Fin 2) ∧ win0_4.index t (1 : Fin 2) = 0
    ∧ win0_5.index t (0 : Fin 2) = win0_8.index t (1 : Fin 2) ∧ win0_5.index t (1 : Fin 2) = 0
    ∧ win0_6.index t (0 : Fin 2) = win0_8.index t (0 : Fin 2) ∧ win0_6.index t (1 : Fin 2) = 0
    ∧ win0_7.index t (0 : Fin 2) = win0_8.index t (1 : Fin 2) ∧ win0_7.index t (1 : Fin 2) = 0
    ∧ win0_8.index t (0 : Fin 2) ≤ 7 ∧ win0_8.index t (1 : Fin 2) ≤ 7 :=
  (by decide +kernel : ∀ t : Fin grid0.N, _)

/-- Every tile of the result is some point's. -/
theorem idx_onto : ∀ (q0 q1 : Fin 8), ∃ t : Fin cfg0.N, win0_8.index t = ![q0.val, q1.val] :=
  (by decide +kernel : ∀ (q0 q1 : Fin 8), ∃ t : Fin grid0.N, win0_8.index t = ![q0.val, q1.val])

/-- Window 0's block at a point, read where the array holds it: row `index · 1024 + row`, the same column. -/
theorem read_blk0 (c : Dev nD) (t : Fin cfg0.N) (y : S1024x256.Idx) (Y : S8192x256.Idx)
    (h0 : (Y 0).val = win0_0.index t (0 : Fin 2) * 1024 + (y 0).val) (h1 : (Y 1).val = (y 1).val) :
    iblk m c 0 t y = V m c main_arg0 Y := by
  show V m c main_arg0 (((cfg0.win 0).blk t).view.emb y) = V m c main_arg0 Y
  have h : ((cfg0.win 0).blk t).view.emb y = Y := by
    funext a; apply Fin.ext
    match a with
    | ⟨0, _⟩ => show win0_0.index t (0 : Fin 2) * 1024 + 1 * (y 0).val = (Y 0).val; omega
    | ⟨1, _⟩ =>
      show win0_0.index t (1 : Fin 2) * 256 + 1 * (y 1).val = (Y 1).val
      obtain ⟨-, e, -, -, -, -, -, -, -, -, -, -, -, -, -, -, -, -⟩ := idx_facts t
      omega
  rw [h]

/-- Window 1's block at a point, read where the array holds it: row `index · 1024 + row`, the same column. -/
theorem read_blk1 (c : Dev nD) (t : Fin cfg0.N) (y : S1024x256.Idx) (Y : S8192x256.Idx)
    (h0 : (Y 0).val = win0_1.index t (0 : Fin 2) * 1024 + (y 0).val) (h1 : (Y 1).val = (y 1).val) :
    iblk m c 1 t y = V m c main_arg0 Y := by
  show V m c main_arg0 (((cfg0.win 1).blk t).view.emb y) = V m c main_arg0 Y
  have h : ((cfg0.win 1).blk t).view.emb y = Y := by
    funext a; apply Fin.ext
    match a with
    | ⟨0, _⟩ => show win0_1.index t (0 : Fin 2) * 1024 + 1 * (y 0).val = (Y 0).val; omega
    | ⟨1, _⟩ =>
      show win0_1.index t (1 : Fin 2) * 256 + 1 * (y 1).val = (Y 1).val
      obtain ⟨-, -, -, e, -, -, -, -, -, -, -, -, -, -, -, -, -, -⟩ := idx_facts t
      omega
  rw [h]

/-- Window 2's block at a point, read where the array holds it: row `index · 1024 + row`, the same column. -/
theorem read_blk2 (c : Dev nD) (t : Fin cfg0.N) (y : S1024x256.Idx) (Y : S8192x256.Idx)
    (h0 : (Y 0).val = win0_2.index t (0 : Fin 2) * 1024 + (y 0).val) (h1 : (Y 1).val = (y 1).val) :
    iblk m c 2 t y = V m c main_v19 Y := by
  show V m c main_v19 (((cfg0.win 2).blk t).view.emb y) = V m c main_v19 Y
  have h : ((cfg0.win 2).blk t).view.emb y = Y := by
    funext a; apply Fin.ext
    match a with
    | ⟨0, _⟩ => show win0_2.index t (0 : Fin 2) * 1024 + 1 * (y 0).val = (Y 0).val; omega
    | ⟨1, _⟩ =>
      show win0_2.index t (1 : Fin 2) * 256 + 1 * (y 1).val = (Y 1).val
      obtain ⟨-, -, -, -, -, e, -, -, -, -, -, -, -, -, -, -, -, -⟩ := idx_facts t
      omega
  rw [h]

/-- Window 3's block at a point, read where the array holds it: row `index · 1024 + row`, the same column. -/
theorem read_blk3 (c : Dev nD) (t : Fin cfg0.N) (y : S1024x256.Idx) (Y : S8192x256.Idx)
    (h0 : (Y 0).val = win0_3.index t (0 : Fin 2) * 1024 + (y 0).val) (h1 : (Y 1).val = (y 1).val) :
    iblk m c 3 t y = V m c main_v19 Y := by
  show V m c main_v19 (((cfg0.win 3).blk t).view.emb y) = V m c main_v19 Y
  have h : ((cfg0.win 3).blk t).view.emb y = Y := by
    funext a; apply Fin.ext
    match a with
    | ⟨0, _⟩ => show win0_3.index t (0 : Fin 2) * 1024 + 1 * (y 0).val = (Y 0).val; omega
    | ⟨1, _⟩ =>
      show win0_3.index t (1 : Fin 2) * 256 + 1 * (y 1).val = (Y 1).val
      obtain ⟨-, -, -, -, -, -, -, e, -, -, -, -, -, -, -, -, -, -⟩ := idx_facts t
      omega
  rw [h]

/-- Window 4's block at a point, read where the array holds it: row `index · 1024 + row`, the same column. -/
theorem read_blk4 (c : Dev nD) (t : Fin cfg0.N) (y : S1024x256.Idx) (Y : S8192x256.Idx)
    (h0 : (Y 0).val = win0_4.index t (0 : Fin 2) * 1024 + (y 0).val) (h1 : (Y 1).val = (y 1).val) :
    iblk m c 4 t y = V m c main_v37 Y := by
  show V m c main_v37 (((cfg0.win 4).blk t).view.emb y) = V m c main_v37 Y
  have h : ((cfg0.win 4).blk t).view.emb y = Y := by
    funext a; apply Fin.ext
    match a with
    | ⟨0, _⟩ => show win0_4.index t (0 : Fin 2) * 1024 + 1 * (y 0).val = (Y 0).val; omega
    | ⟨1, _⟩ =>
      show win0_4.index t (1 : Fin 2) * 256 + 1 * (y 1).val = (Y 1).val
      obtain ⟨-, -, -, -, -, -, -, -, -, e, -, -, -, -, -, -, -, -⟩ := idx_facts t
      omega
  rw [h]

/-- Window 5's block at a point, read where the array holds it: row `index · 1024 + row`, the same column. -/
theorem read_blk5 (c : Dev nD) (t : Fin cfg0.N) (y : S1024x256.Idx) (Y : S8192x256.Idx)
    (h0 : (Y 0).val = win0_5.index t (0 : Fin 2) * 1024 + (y 0).val) (h1 : (Y 1).val = (y 1).val) :
    iblk m c 5 t y = V m c main_v37 Y := by
  show V m c main_v37 (((cfg0.win 5).blk t).view.emb y) = V m c main_v37 Y
  have h : ((cfg0.win 5).blk t).view.emb y = Y := by
    funext a; apply Fin.ext
    match a with
    | ⟨0, _⟩ => show win0_5.index t (0 : Fin 2) * 1024 + 1 * (y 0).val = (Y 0).val; omega
    | ⟨1, _⟩ =>
      show win0_5.index t (1 : Fin 2) * 256 + 1 * (y 1).val = (Y 1).val
      obtain ⟨-, -, -, -, -, -, -, -, -, -, -, e, -, -, -, -, -, -⟩ := idx_facts t
      omega
  rw [h]

/-- Window 6's block at a point, read where the array holds it: row `index · 1024 + row`, the same column. -/
theorem read_blk6 (c : Dev nD) (t : Fin cfg0.N) (y : S1024x256.Idx) (Y : S8192x256.Idx)
    (h0 : (Y 0).val = win0_6.index t (0 : Fin 2) * 1024 + (y 0).val) (h1 : (Y 1).val = (y 1).val) :
    iblk m c 6 t y = V m c main_v54 Y := by
  show V m c main_v54 (((cfg0.win 6).blk t).view.emb y) = V m c main_v54 Y
  have h : ((cfg0.win 6).blk t).view.emb y = Y := by
    funext a; apply Fin.ext
    match a with
    | ⟨0, _⟩ => show win0_6.index t (0 : Fin 2) * 1024 + 1 * (y 0).val = (Y 0).val; omega
    | ⟨1, _⟩ =>
      show win0_6.index t (1 : Fin 2) * 256 + 1 * (y 1).val = (Y 1).val
      obtain ⟨-, -, -, -, -, -, -, -, -, -, -, -, -, e, -, -, -, -⟩ := idx_facts t
      omega
  rw [h]

/-- Window 7's block at a point, read where the array holds it: row `index · 1024 + row`, the same column. -/
theorem read_blk7 (c : Dev nD) (t : Fin cfg0.N) (y : S1024x256.Idx) (Y : S8192x256.Idx)
    (h0 : (Y 0).val = win0_7.index t (0 : Fin 2) * 1024 + (y 0).val) (h1 : (Y 1).val = (y 1).val) :
    iblk m c 7 t y = V m c main_v54 Y := by
  show V m c main_v54 (((cfg0.win 7).blk t).view.emb y) = V m c main_v54 Y
  have h : ((cfg0.win 7).blk t).view.emb y = Y := by
    funext a; apply Fin.ext
    match a with
    | ⟨0, _⟩ => show win0_7.index t (0 : Fin 2) * 1024 + 1 * (y 0).val = (Y 0).val; omega
    | ⟨1, _⟩ =>
      show win0_7.index t (1 : Fin 2) * 256 + 1 * (y 1).val = (Y 1).val
      obtain ⟨-, -, -, -, -, -, -, -, -, -, -, -, -, -, -, e, -, -⟩ := idx_facts t
      omega
  rw [h]

/-- The inner product of a row of window 0's block with a row of window 1's block is the inner product of the two
    rows of the array they are blocks of. -/
theorem rowDot_pair0 (c : Dev nD) (t : Fin cfg0.N) (p q : Fin 1024) (P Q : Fin 8192)
    (hP : P.val = win0_8.index t (0 : Fin 2) * 1024 + p.val) (hQ : Q.val = win0_8.index t (1 : Fin 2) * 1024 + q.val) :
    rowDot (iblk m c 0 t) (iblk m c 1 t) p q = rowDot (V m c main_arg0) (V m c main_arg0) P Q := by
  obtain ⟨er, -, ec, -, -, -, -, -, -, -, -, -, -, -, -, -, -, -⟩ := idx_facts t
  unfold rowDot
  refine Finset.sum_congr rfl fun k _ => ?_
  rw [read_blk0 m c t (ix2 p k) (ix2 P k) (by show P.val = win0_0.index t (0 : Fin 2) * 1024 + p.val; omega) rfl,
    read_blk1 m c t (ix2 q k) (ix2 Q k) (by show Q.val = win0_1.index t (0 : Fin 2) * 1024 + q.val; omega) rfl]

/-- The inner product of a row of window 2's block with a row of window 3's block is the inner product of the two
    rows of the array they are blocks of. -/
theorem rowDot_pair1 (c : Dev nD) (t : Fin cfg0.N) (p q : Fin 1024) (P Q : Fin 8192)
    (hP : P.val = win0_8.index t (0 : Fin 2) * 1024 + p.val) (hQ : Q.val = win0_8.index t (1 : Fin 2) * 1024 + q.val) :
    rowDot (iblk m c 2 t) (iblk m c 3 t) p q = rowDot (V m c main_v19) (V m c main_v19) P Q := by
  obtain ⟨-, -, -, -, er, -, ec, -, -, -, -, -, -, -, -, -, -, -⟩ := idx_facts t
  unfold rowDot
  refine Finset.sum_congr rfl fun k _ => ?_
  rw [read_blk2 m c t (ix2 p k) (ix2 P k) (by show P.val = win0_2.index t (0 : Fin 2) * 1024 + p.val; omega) rfl,
    read_blk3 m c t (ix2 q k) (ix2 Q k) (by show Q.val = win0_3.index t (0 : Fin 2) * 1024 + q.val; omega) rfl]

/-- The inner product of a row of window 4's block with a row of window 5's block is the inner product of the two
    rows of the array they are blocks of. -/
theorem rowDot_pair2 (c : Dev nD) (t : Fin cfg0.N) (p q : Fin 1024) (P Q : Fin 8192)
    (hP : P.val = win0_8.index t (0 : Fin 2) * 1024 + p.val) (hQ : Q.val = win0_8.index t (1 : Fin 2) * 1024 + q.val) :
    rowDot (iblk m c 4 t) (iblk m c 5 t) p q = rowDot (V m c main_v37) (V m c main_v37) P Q := by
  obtain ⟨-, -, -, -, -, -, -, -, er, -, ec, -, -, -, -, -, -, -⟩ := idx_facts t
  unfold rowDot
  refine Finset.sum_congr rfl fun k _ => ?_
  rw [read_blk4 m c t (ix2 p k) (ix2 P k) (by show P.val = win0_4.index t (0 : Fin 2) * 1024 + p.val; omega) rfl,
    read_blk5 m c t (ix2 q k) (ix2 Q k) (by show Q.val = win0_5.index t (0 : Fin 2) * 1024 + q.val; omega) rfl]

/-- The inner product of a row of window 6's block with a row of window 7's block is the inner product of the two
    rows of the array they are blocks of. -/
theorem rowDot_pair3 (c : Dev nD) (t : Fin cfg0.N) (p q : Fin 1024) (P Q : Fin 8192)
    (hP : P.val = win0_8.index t (0 : Fin 2) * 1024 + p.val) (hQ : Q.val = win0_8.index t (1 : Fin 2) * 1024 + q.val) :
    rowDot (iblk m c 6 t) (iblk m c 7 t) p q = rowDot (V m c main_v54) (V m c main_v54) P Q := by
  obtain ⟨-, -, -, -, -, -, -, -, -, -, -, -, er, -, ec, -, -, -⟩ := idx_facts t
  unfold rowDot
  refine Finset.sum_congr rfl fun k _ => ?_
  rw [read_blk6 m c t (ix2 p k) (ix2 P k) (by show P.val = win0_6.index t (0 : Fin 2) * 1024 + p.val; omega) rfl,
    read_blk7 m c t (ix2 q k) (ix2 Q k) (by show Q.val = win0_7.index t (0 : Fin 2) * 1024 + q.val; omega) rfl]

/-- What point `t` writes back is tile `t` of the result function of the arrays as the region finds them. -/
theorem flushed_eq (c : Dev nD) (t : Fin cfg0.N) :
    (dats m 0 c).flushed 8 t = ((cfg0.win 8).blk t).view.read (Elt Ideal) (G (V m c main_arg0) (V m c main_v19) (V m c main_v37) (V m c main_v54)) := by
  show (cfg0.win 8).cut (grid0.coords t) ((dats m 0 c).after 8 t) = _
  rw [after0_8]
  unfold outBlock
  rw [View.canon_unit_zero hz]
  simp only [View.ld_unit_zero (S := S1024x256) hz]
  funext j
  obtain ⟨p, q, rfl⟩ : ∃ (p : Fin 1024) (q : Fin 1024), j = ix2 p q := ⟨j 0, j 1, eq_ix2 j⟩
  show k0_pay1 (F := Ideal) (k0_pay2 (F := Ideal) (iblk m c 0 t) (iblk m c 1 t) (iblk m c 2 t) (iblk m c 3 t) (iblk m c 4 t) (iblk m c 5 t)) (k0_pay3 (F := Ideal) (iblk m c 6 t) (iblk m c 7 t)) (ix2 p q)
    = G (V m c main_arg0) (V m c main_v19) (V m c main_v37) (V m c main_v54) (((cfg0.win 8).blk t).view.emb (ix2 p q))
  refine (Cert.KernelEntry.block_entry (iblk m c 0 t) (iblk m c 1 t) (iblk m c 2 t) (iblk m c 3 t) (iblk m c 4 t) (iblk m c 5 t) (iblk m c 6 t) (iblk m c 7 t) p q).trans ?_
  have hP : ((⟨((((cfg0.win 8).blk t).view.emb (ix2 p q)) 0).val, ((((cfg0.win 8).blk t).view.emb (ix2 p q)) 0).isLt⟩ : Fin 8192)).val = win0_8.index t (0 : Fin 2) * 1024 + p.val := by
    show win0_8.index t (0 : Fin 2) * 1024 + 1 * p.val = _; omega
  have hQ : ((⟨((((cfg0.win 8).blk t).view.emb (ix2 p q)) 1).val, ((((cfg0.win 8).blk t).view.emb (ix2 p q)) 1).isLt⟩ : Fin 8192)).val = win0_8.index t (1 : Fin 2) * 1024 + q.val := by
    show win0_8.index t (1 : Fin 2) * 1024 + 1 * q.val = _; omega
  unfold G
  rw [rowDot_pair0 m c t p q _ _ hP hQ, rowDot_pair1 m c t p q _ _ hP hQ, rowDot_pair2 m c t p q _ _ hP hQ, rowDot_pair3 m c t p q _ _ hP hQ]

/-- An index of the result is in point `t`'s tile iff each coordinate is in the tile's range. -/
theorem mem_blk (t : Fin cfg0.N) (i : S8192x8192.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v55).slice (win0_8.rect t)).set ↔ _
  rw [View.set_slice_whole, Rect.mem_set_unit]
  exact Iff.rfl

/-- Every index of the result is in some point's tile, and every point writes its tile back. -/
theorem cover (i : S8192x8192.Idx) : ∃ t : Fin cfg0.N, (cfg0.win 8).flush t = true ∧ i ∈ ((cfg0.win 8).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_8.index t (0 : Fin 2) = (i 0).val / 1024 := congrFun ht 0
  have q1 : win0_8.index t (1 : Fin 2) = (i 1).val / 1024 := congrFun ht 1
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The result array after the run is the result function of the four arrays as the region finds them. -/
theorem final (c : Dev nD) :
    (dats m 0 c).arrAt 8 cfg0.N = G (V m c main_arg0) (V m c main_v19) (V m c main_v37) (V m c main_v54) :=
  (dats m 0 c).arrAt_eq_of_cover 8 _ (fun t _ => flushed_eq m c t) cover

end Cert.KernelIdeal.HandValue

end
-- ==== Proof.RefEntry.lean ====
/-
  One entry of the reference's result, as the weighted sum of four inner products of rows.

  The reference forms, on the host, the product of each of four 8192 x 256 arrays with its own transpose: the start
  array and three later stage arrays that a gather and scatter-add chain computes from it.  Over the extended reals the
  host's product is the plain contraction, so the entry (i, j) of each product is the inner product of rows i and j
  of the array.  The reference adds the second and the third product, weights their sum by the word of three, adds
  the first and the fourth, and multiplies on the left by the product of the words of one and one eighth: the
  arrangement the shared specification names refForm.  The three stage arrays stay opaque throughout.
-/
import proofs.«176461_j28552942584321_1_alg».proof.Proof.Gen.ReferenceIdeal.Read
import proofs.«176461_j28552942584321_1_alg».proof.Proof.GramSpec

noncomputable section

namespace Cert.RefEntry

open Idealize.ShloMosaic Idealize.ShloMosaic.ValueIdx Cert.ReferenceIdeal Cert.ReferenceIdeal.Read Cert.GramSpec

/-! The left operand of each product is read at row i, column k; the transposed right operand, read at row k,
    column j, is the array at row j, column k. -/

theorem lidx57 (i j : Fin 8192) (k : Fin 256) : lidx_main_v57 (ix2 i j) k = ix2 i k :=
  funext fun a => by match a with | ⟨0, _⟩ => rfl | ⟨1, _⟩ => rfl
theorem ridx57 (i j : Fin 8192) (k : Fin 256) : idx_main_v56 (ridx_main_v57 (ix2 i j) k) = ix2 j k :=
  funext fun a => by match a with | ⟨0, _⟩ => rfl | ⟨1, _⟩ => rfl
theorem lidx59 (i j : Fin 8192) (k : Fin 256) : lidx_main_v59 (ix2 i j) k = ix2 i k :=
  funext fun a => by match a with | ⟨0, _⟩ => rfl | ⟨1, _⟩ => rfl
theorem ridx59 (i j : Fin 8192) (k : Fin 256) : idx_main_v58 (ridx_main_v59 (ix2 i j) k) = ix2 j k :=
  funext fun a => by match a with | ⟨0, _⟩ => rfl | ⟨1, _⟩ => rfl
theorem lidx61 (i j : Fin 8192) (k : Fin 256) : lidx_main_v61 (ix2 i j) k = ix2 i k :=
  funext fun a => by match a with | ⟨0, _⟩ => rfl | ⟨1, _⟩ => rfl
theorem ridx61 (i j : Fin 8192) (k : Fin 256) : idx_main_v60 (ridx_main_v61 (ix2 i j) k) = ix2 j k :=
  funext fun a => by match a with | ⟨0, _⟩ => rfl | ⟨1, _⟩ => rfl
theorem lidx67 (i j : Fin 8192) (k : Fin 256) : lidx_main_v67 (ix2 i j) k = ix2 i k :=
  funext fun a => by match a with | ⟨0, _⟩ => rfl | ⟨1, _⟩ => rfl
theorem ridx67 (i j : Fin 8192) (k : Fin 256) : idx_main_v66 (ridx_main_v67 (ix2 i j) k) = ix2 j k :=
  funext fun a => by match a with | ⟨0, _⟩ => rfl | ⟨1, _⟩ => rfl

/-- The entry (i, j) of the reference's result: the four inner products in the reference's arrangement. -/
theorem ref_entry (x0 : (⟨S8192x256, .f32⟩ : BufTy).Contents (Elt Ideal)) (x1 : (⟨S131072x1, .f32⟩ : BufTy).Contents (Elt Ideal))
    (x2 x3 : (⟨S131072, .i32⟩ : BufTy).Contents (Elt Ideal)) (i j : Fin 8192) :
    val_main_v70 (F := Ideal) x0 x1 x2 x3 (ix2 i j)
      = refForm (rowDot x0 x0 i j)
          (rowDot (val_main_v19 (F := Ideal) x0 x1 x2 x3) (val_main_v19 (F := Ideal) x0 x1 x2 x3) i j)
          (rowDot (val_main_v37 (F := Ideal) x0 x1 x2 x3) (val_main_v37 (F := Ideal) x0 x1 x2 x3) i j)
          (rowDot (val_main_v54 (F := Ideal) x0 x1 x2 x3) (val_main_v54 (F := Ideal) x0 x1 x2 x3) i j) := by
  rw [val_main_v70_apply, val_main_v69_apply, val_main_v68_apply, val_main_v67_apply, val_main_v65_apply,
    val_main_v64_apply, val_main_v63_apply, val_main_v62_apply, val_main_v61_apply, val_main_v59_apply,
    val_main_v57_apply, val_main_v55_apply, val_main_cst_13_apply, val_main_cst_14_apply, val_main_cst_15_apply]
  simp only [val_main_v66_apply, val_main_v60_apply, val_main_v58_apply, val_main_v56_apply,
    lidx57, ridx57, lidx59, ridx59, lidx61, ridx61, lidx67, ridx67]
  generalize val_main_v19 (F := Ideal) x0 x1 x2 x3 = y19
  generalize val_main_v37 (F := Ideal) x0 x1 x2 x3 = y37
  generalize val_main_v54 (F := Ideal) x0 x1 x2 x3 = y54
  rfl

end Cert.RefEntry

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.HostValue.lean ====
/-
  The host operations before the region: what they leave in the three buffers the region reads.

  Both programs begin with the same line of host operations: a comparison and a selection on the edge weights, then
  three rounds of gather, multiply, scatter-add and a few pointwise operations, producing three arrays of the shape
  of the start state from the four arguments.  One program then enters its region on these arrays; the other goes on
  on the host, and its stages are named one operation at a time, each a function of the arguments.  The theorems
  below read the first program's buffers at the moment the region is entered — the fold of its host operations over
  the launch memory — and state that each of the three arrays is exactly the value the other program's stage of the
  same number names, as a function of the four argument arrays as launched.

  The two sides are the same composition of the same operations: the fold is rewritten, operation by operation, to
  the function each operation applies to what its operands hold, the transports a called function's typed
  references put around its values are cancelled, and the composed term is then the staged definition unfolded.
  The shape records and shape facts of the two programs carry the same data; their proofs differ only up to proof
  irrelevance.
-/
import proofs.«176461_j28552942584321_1_alg».proof.Proof.Gen.KernelIdeal.Launch
import proofs.«176461_j28552942584321_1_alg».proof.Proof.Gen.ReferenceIdeal.Read
import proofs.«176461_j28552942584321_1_alg».proof.Proof.LibFold
import proofs.«176461_j28552942584321_1_alg».proof.Proof.LibTypedRef
import Idealize.ShloMosaic.Lib.StableHlo.Run

noncomputable section

namespace Cert.HostValue

open Idealize.ShloMosaic Idealize.ShloMosaic.TcCoe Idealize.SL.Sem Idealize.ShloMosaic.StableHlo
open Cert.KernelIdeal Cert.KernelIdeal.Gen

set_option maxRecDepth 8192 in
set_option maxHeartbeats 16000000 in
/-- The array of stage 19 when the region is entered is the value the other program's stage 19 names, as a
    function of the four argument arrays as launched. -/
theorem entry_v19 (m : (ℓ : Loc nD τ sig) → Buf (Elt Ideal) ℓ) (c : Dev nD) :
    StableHlo.after (List.flatten [hostOps0 (F := Ideal), hostOps0_1 (F := Ideal), hostOps0_2 (F := Ideal)]) (fun b => m (c, b)) (Proc.devRef .tc main_v19)
      = Cert.ReferenceIdeal.Read.val_main_v19 (F := Ideal)
          (m ((c.tc : Thread nD τ).loc main_arg0)) (m ((c.tc : Thread nD τ).loc main_arg1))
          (m ((c.tc : Thread nD τ).loc main_arg2)) (m ((c.tc : Thread nD τ).loc main_arg3)) := by
  simp only [hostOps0, hostOps0_1, hostOps0_2, List.flatten_cons, List.flatten_nil, List.append_nil, List.cons_append, List.nil_append]
  after_results_simp
  simp only [TRef.ofBuf_toBuf, TRef.toBuf_ofBuf]
  rfl

set_option maxRecDepth 8192 in
set_option maxHeartbeats 16000000 in
/-- The array of stage 37 when the region is entered is the value the other program's stage 37 names, as a
    function of the four argument arrays as launched. -/
theorem entry_v37 (m : (ℓ : Loc nD τ sig) → Buf (Elt Ideal) ℓ) (c : Dev nD) :
    StableHlo.after (List.flatten [hostOps0 (F := Ideal), hostOps0_1 (F := Ideal), hostOps0_2 (F := Ideal)]) (fun b => m (c, b)) (Proc.devRef .tc main_v37)
      = Cert.ReferenceIdeal.Read.val_main_v37 (F := Ideal)
          (m ((c.tc : Thread nD τ).loc main_arg0)) (m ((c.tc : Thread nD τ).loc main_arg1))
          (m ((c.tc : Thread nD τ).loc main_arg2)) (m ((c.tc : Thread nD τ).loc main_arg3)) := by
  simp only [hostOps0, hostOps0_1, hostOps0_2, List.flatten_cons, List.flatten_nil, List.append_nil, List.cons_append, List.nil_append]
  after_results_simp
  simp only [TRef.ofBuf_toBuf, TRef.toBuf_ofBuf]
  rfl

set_option maxRecDepth 8192 in
set_option maxHeartbeats 16000000 in
/-- The array of stage 54 when the region is entered is the value the other program's stage 54 names, as a
    function of the four argument arrays as launched. -/
theorem entry_v54 (m : (ℓ : Loc nD τ sig) → Buf (Elt Ideal) ℓ) (c : Dev nD) :
    StableHlo.after (List.flatten [hostOps0 (F := Ideal), hostOps0_1 (F := Ideal), hostOps0_2 (F := Ideal)]) (fun b => m (c, b)) (Proc.devRef .tc main_v54)
      = Cert.ReferenceIdeal.Read.val_main_v54 (F := Ideal)
          (m ((c.tc : Thread nD τ).loc main_arg0)) (m ((c.tc : Thread nD τ).loc main_arg1))
          (m ((c.tc : Thread nD τ).loc main_arg2)) (m ((c.tc : Thread nD τ).loc main_arg3)) := by
  simp only [hostOps0, hostOps0_1, hostOps0_2, List.flatten_cons, List.flatten_nil, List.append_nil, List.cons_append, List.nil_append]
  after_results_simp
  simp only [TRef.ofBuf_toBuf, TRef.toBuf_ofBuf]
  rfl

end Cert.HostValue

end
-- ==== Proof.lean ====
/-
  The kernel computes, tile by tile, K = ((g(x0) + 3·g(xb)) + 3·g(xc) + g(xd)) · (1/8), where g(x) = x·xᵀ is the matrix of
  inner products of the rows of x, and x0, xb, xc, xd are the start state and the three later stage states of one
  Runge–Kutta step of a graph diffusion, built by host operations (gather along the edges, weight, scatter-add, update)
  before the kernel runs.  The reference builds the same four states by the same host operations and ends with
  (1 · (1/8)) · ((g(x0) + 3·(g(xb) + g(xc))) + g(xd)).

  Frames: the kernel program is host operations followed by one pipelined region whose row and column windows read
  each state through two windows; the region's launch deals each state's share between its two windows, the body at
  every grid point loads eight blocks and stores one covering tile, and no operation writes an argument.  The
  reference is a straight line of host operations.

  Values, at the exact instance: the kernel's result array ends, entry (i, j), at the scaled weighted sum of the four
  inner products of rows i and j of the states as the region finds them; those states are the reference's own stage
  values of the arguments; the reference's last operations give the other arrangement of the same four inner
  products; and the two arrangements are one extended real, because a product with the non-negative real three
  distributes over any sum of extended reals.  No finiteness of the inputs is used.
-/
import proofs.«176461_j28552942584321_1_alg».proof.Defs
import proofs.«176461_j28552942584321_1_alg».proof.Proof.Gen.Kernel
import proofs.«176461_j28552942584321_1_alg».proof.Proof.Gen.KernelIdeal
import proofs.«176461_j28552942584321_1_alg».proof.Proof.Gen.ReferenceIdeal
import proofs.«176461_j28552942584321_1_alg».proof.Proof.Gen.Pre_finite_inputs
import proofs.«176461_j28552942584321_1_alg».proof.Proof.Gen.ReferenceIdeal.Read
import proofs.«176461_j28552942584321_1_alg».proof.Proof.KRun
import proofs.«176461_j28552942584321_1_alg».proof.Proof.KIRun
import proofs.«176461_j28552942584321_1_alg».proof.Proof.KIValue
import proofs.«176461_j28552942584321_1_alg».proof.Proof.RefEntry
import proofs.«176461_j28552942584321_1_alg».proof.Proof.HostValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Hand.frame (F := Bits) m ρ

/-- So does the program read at the exact instance. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

section Values

open Cert.KernelIdeal Cert.KernelIdeal.Gen Cert.KernelIdeal.Hand Cert.KernelIdeal.HandValue Cert.GramSpec

variable (m : (ℓ : Loc nD τ sig) → Buf (Elt Ideal) ℓ) (ρ : Dev nD → PrngReg)

/-- The kernel program's run, its result array named: the result function of the four states as the region finds them. -/
theorem kernel_run :
    θ_run (Cert.KernelIdeal.defs (F := Ideal)) (onTc (τ := τ) (main (F := Ideal))) ⟨m, fun _ => 0, ρ⟩ (fun r => ∀ c : Dev nD,
      r.2.mem ((c.tc : Thread nD τ).loc main_v55) = G (V m c main_arg0) (V m c main_v19) (V m c main_v37) (V m c main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 8).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The reference's result, entry by entry, is the kernel's result function of the same four states: the states are the
    reference's stage values, the reference's tail is the other arrangement, and the arrangements agree. -/
theorem ref_value (c : Dev nD) (x0 : (⟨Cert.ReferenceIdeal.S8192x256, .f32⟩ : BufTy).Contents (Elt Ideal))
    (x1 : (⟨Cert.ReferenceIdeal.S131072x1, .f32⟩ : BufTy).Contents (Elt Ideal)) (x2 x3 : (⟨Cert.ReferenceIdeal.S131072, .i32⟩ : BufTy).Contents (Elt Ideal)) :
    Cert.ReferenceIdeal.Read.val_main_v70 (F := Ideal) x0 x1 x2 x3
      = G x0 (Cert.ReferenceIdeal.Read.val_main_v19 (F := Ideal) x0 x1 x2 x3) (Cert.ReferenceIdeal.Read.val_main_v37 (F := Ideal) x0 x1 x2 x3)
          (Cert.ReferenceIdeal.Read.val_main_v54 (F := Ideal) x0 x1 x2 x3) := by
  funext i
  obtain ⟨a, b, rfl⟩ : ∃ (a b : Fin 8192), i = ix2 a b := ⟨i 0, i 1, eq_ix2 i⟩
  rw [Cert.RefEntry.ref_entry, ← forms_eq]
  rfl

end Values

/-- From memories agreeing on the arguments the two programs end with equal results, entry by entry. -/
theorem algebraic : Cert.algebraic_KernelIdeal_ReferenceIdeal := by
  intro m ρ m' ρ' _ hagree
  refine ⟨fun c => Cert.KernelIdeal.HandValue.G (Cert.KernelIdeal.Hand.V m c Cert.KernelIdeal.main_arg0) (Cert.KernelIdeal.Hand.V m c Cert.KernelIdeal.main_v19)
      (Cert.KernelIdeal.Hand.V m c Cert.KernelIdeal.main_v37) (Cert.KernelIdeal.Hand.V m c Cert.KernelIdeal.main_v54), kernel_run m ρ, ?_⟩
  refine (θ_run Cert.ReferenceIdeal.defs _ _).mono (fun _ h c => ⟨(h c).1.trans ?_, (h c).2⟩)
    (Cert.ReferenceIdeal.Value.run (F := Ideal) m' ρ')
  have e0 := Cert.KernelIdeal.Hand.V_main_arg0 m c
  have e19 : Cert.KernelIdeal.Hand.V m c Cert.KernelIdeal.main_v19 = _ := Cert.HostValue.entry_v19 m c
  have e37 : Cert.KernelIdeal.Hand.V m c Cert.KernelIdeal.main_v37 = _ := Cert.HostValue.entry_v37 m c
  have e54 : Cert.KernelIdeal.Hand.V m c Cert.KernelIdeal.main_v54 = _ := Cert.HostValue.entry_v54 m c
  rw [Cert.ReferenceIdeal.Read.val_main_v70_eq, (hagree c).1, (hagree c).2.1, (hagree c).2.2.1, (hagree c).2.2.2]
  beta_reduce
  rw [e0, e19, e37, e54]
  exact ref_value c _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
